-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x64x64 : Shape := ⟨4, ![16, 512, 64, 64]⟩
abbrev S16x512 : Shape := ⟨2, ![16, 512]⟩
abbrev S512x512 : Shape := ⟨2, ![512, 512]⟩
abbrev S512 : Shape := ⟨1, ![512]⟩
abbrev S3x512 : Shape := ⟨2, ![3, 512]⟩
abbrev S3 : Shape := ⟨1, ![3]⟩
abbrev S_ : Shape := ⟨0, ![]⟩

class Facts : Prop where
  bcast_S_S16x512x64x64 : S_.BroadcastsInDim S16x512x64x64 (![] : Fin 0 → Fin S16x512x64x64.rank)
  reducesTo_S16x512x64x64_S_d0_1_2_3 : S16x512x64x64.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S3x512 : S_.BroadcastsInDim S3x512 (![] : Fin 0 → Fin S3x512.rank)
  reducesTo_S3x512_S_d0_1 : S3x512.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg4 : FVec F S3x512 .f32) (main_arg5 : FVec F S3 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S3x512 .f32 := Host.absf main_arg4
  let main_cst_6 : FVec F S_ .f32 := constant S_ .f32 0x7F800000#32
  let main_v20 : FVec F S3x512 .f32 := broadcastInDim S3x512 ![] bcast_S_S3x512 main_cst_6
  let main_v21 : IVec S3x512 1 := cmpf .olt main_v19 main_v20
  let main_c_7 : IVec S_ 1 := constantI S_ 1 1#1
  let main_v22 : IVec S_ 1 := (fun x v => Host.reduce IntOp.andi x v reducesTo_S3x512_S_d0_1 h_S_) main_v21 main_c_7
  let main_v23 : IVec S_ 1 := andi main_v18 main_v22
  let main_v24 : FVec F S3 .f32 := Host.absf main_arg5
  let main_cst_8 : FVec F S_ .f32 := constant S_ .f32 0x7F800000#32
  let main_v25 : FVec F S3 .f32 := broadcastInDim S3 ![] bcast_S_S3 main_cst_8
  let main_v26 : IVec S3 1 := cmpf .olt main_v24 main_v25
  let main_c_9 : IVec S_ 1 := constantI S_ 1 1#1
  let main_v27 : IVec S_ 1 := (fun x v => Host.reduce IntOp.andi x v reducesTo_S3_S_d0 h_S_) main_v26 main_c_9
  let main_v28 : IVec S_ 1 := andi main_v23 main_v27
  main_v28

def fn {F : FTy → Type} [FloatOps F] (main_arg0 : FVec F S16x512x64x64 .f32) (main_arg1 : FVec F S16x512 .f32) (main_arg2 : FVec F S512x512 .f32) (main_arg3 : FVec F S512 .f32) (main_arg4 : FVec F S3x512 .f32) (main_arg5 : FVec F S3 .f32) : IVec S_ 1 :=
  let main_v0 : FVec F S16x512x64x64 .f32 := Host.absf main_arg0
  let main_cst : FVec F S_ .f32 := constant S_ .f32 0x7F800000#32
  let main_v1 : FVec F S16x512x64x64 .f32 := broadcastInDim S16x512x64x64 ![] bcast_S_S16x512x64x64 main_cst
  let main_v2 : IVec S16x512x64x64 1 := cmpf .olt main_v0 main_v1
  let main_c : IVec S_ 1 := constantI S_ 1 1#1
  let main_v3 : IVec S_ 1 := (fun x v => Host.reduce IntOp.andi x v reducesTo_S16x512x64x64_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S16x512x64x64 : Shape := ⟨4, ![16, 512, 64, 64]⟩
abbrev S16x512 : Shape := ⟨2, ![16, 512]⟩
abbrev S512x512 : Shape := ⟨2, ![512, 512]⟩
abbrev S512 : Shape := ⟨1, ![512]⟩
abbrev S3x512 : Shape := ⟨2, ![3, 512]⟩
abbrev S3 : Shape := ⟨1, ![3]⟩
abbrev S_ : Shape := ⟨0, ![]⟩
abbrev S1x512 : Shape := ⟨2, ![1, 512]⟩
abbrev S1x3x512 : Shape := ⟨3, ![1, 3, 512]⟩
abbrev S16x1x512 : Shape := ⟨3, ![16, 1, 512]⟩
abbrev S16x3x512 : Shape := ⟨3, ![16, 3, 512]⟩
abbrev S16x3 : Shape := ⟨2, ![16, 3]⟩
abbrev S16x3x1 : Shape := ⟨3, ![16, 3, 1]⟩
abbrev S16x3x64x64 : Shape := ⟨4, ![16, 3, 64, 64]⟩
abbrev S1x512x64x64 : Shape := ⟨4, ![1, 512, 64, 64]⟩
abbrev S1x3x64x64 : Shape := ⟨4, ![1, 3, 64, 64]⟩
abbrev S512x64x64 : Shape := ⟨3, ![512, 64, 64]⟩
abbrev S512x1x1 : Shape := ⟨3, ![512, 1, 1]⟩
abbrev S64x64 : Shape := ⟨2, ![64, 64]⟩
abbrev S1 : Shape := ⟨1, ![1]⟩
abbrev S1x1x64x64 : Shape := ⟨4, ![1, 1, 64, 64]⟩

abbrev nBuf : Space → Nat
  | .hbm => 30
  | .vmem => 7
  | .smem => 0
  | _ => 0

abbrev bufTy : (tb : Table) → Fin (tcTables nBuf tb) → BufTy
  | .hbm, ⟨0, _⟩ => ⟨S16x512x64x64, .f32⟩
  | .hbm, ⟨1, _⟩ => ⟨S16x512, .f32⟩
  | .hbm, ⟨2, _⟩ => ⟨S512x512, .f32⟩
  | .hbm, ⟨3, _⟩ => ⟨S512, .f32⟩
  | .hbm, ⟨4, _⟩ => ⟨S3x512, .f32⟩
  | .hbm, ⟨5, _⟩ => ⟨S3, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S16x512, .f32⟩
  | .hbm, ⟨11, _⟩ => ⟨S1x512, .f32⟩
  | .hbm, ⟨12, _⟩ => ⟨S16x512, .f32⟩
  | .hbm, ⟨13, _⟩ => ⟨S16x512, .f32⟩
  | .hbm, ⟨14, _⟩ => ⟨S1x3x512, .f32⟩
  | .hbm, ⟨15, _⟩ => ⟨S16x1x512, .f32⟩
  | .hbm, ⟨16, _⟩ => ⟨S16x3x512, .f32⟩
  | .hbm, ⟨17, _⟩ => ⟨S16x3x512, .f32⟩
  | .hbm, ⟨18, _⟩ => ⟨S16x3x512, .f32⟩
  | .hbm, ⟨19, _⟩ => ⟨S16x3x512, .f32⟩
  | .hbm, ⟨20, _⟩ => ⟨S_, .f32⟩
  | .hbm, ⟨21, _⟩ => ⟨S16x3, .f32⟩
  | .hbm, ⟨22, _⟩ => ⟨S_, .f32⟩
  | .hbm, ⟨23, _⟩ => ⟨S16x3, .f32⟩
  | .hbm, ⟨24, _⟩ => ⟨S16x3, .f32⟩
  | .hbm, ⟨25, _⟩ => ⟨S16x3, .f32⟩
  | .hbm, ⟨26, _⟩ => ⟨S16x3x1, .f32⟩
  | .hbm, ⟨27, _⟩ => ⟨S16x3x512, .f32⟩
  | .hbm, ⟨28, _⟩ => ⟨S16x3x512, .f32⟩
  | .hbm, ⟨29, _⟩ => ⟨S16x3x64x64, .f32⟩
  | .local _ .vmem, ⟨0, _⟩ => ⟨S1x512x64x64, .f32⟩
  | .local _ .vmem, ⟨1, _⟩ => ⟨S1x512x64x64, .f32⟩
  | .local _ .vmem, ⟨2, _⟩ => ⟨S1x3x512, .f32⟩
  | .local _ .vmem, ⟨3, _⟩ => ⟨S1x3x512, .f32⟩
  | .local _ .vmem, ⟨4, _⟩ => ⟨S3, .f32⟩
  | .local _ .vmem, ⟨5, _⟩ => ⟨S1x3x64x64, .f32⟩
  | .local _ .vmem, ⟨6, _⟩ => ⟨S1x3x64x64, .f32⟩
  | _, _ => ⟨S16x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x512x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x3x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  transposes_S512x512_S512x512_1_0 : S512x512.Transposes [1, 0] S512x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S3x512_S1x3x512_1_2 : S3x512.BroadcastsInDim S1x3x512 (![1, 2] : Fin 2 → Fin S1x3x512.rank)
  bcast_S16x512_S16x1x512_0_2 : S16x512.BroadcastsInDim S16x1x512 (![0, 2] : Fin 2 → Fin S16x1x512.rank)
  bcast_S1x3x512_S16x3x512_0_1_2 : S1x3x512.BroadcastsInDim S16x3x512 (![0, 1, 2] : Fin 3 → Fin S16x3x512.rank)
  bcast_S16x1x512_S16x3x512_0_1_2 : S16x1x512.BroadcastsInDim S16x3x512 (![0, 1, 2] : Fin 3 → Fin S16x3x512.rank)
  reducesTo_S16x3x512_S16x3_d2 : S16x3x512.ReducesTo [2] S16x3
  h_S_ : 0 < S_.numel
  bcast_S_S16x3 : S_.BroadcastsInDim S16x3 (![] : Fin 0 → Fin S16x3.rank)
  bcast_S16x3_S16x3x1_0_1 : S16x3.BroadcastsInDim S16x3x1 (![0, 1] : Fin 2 → Fin S16x3x1.rank)
  bcast_S16x3x1_S16x3x512_0_1_2 : S16x3x1.BroadcastsInDim S16x3x512 (![0, 1, 2] : Fin 3 → Fin S16x3x512.rank)
  inb_S1x512x64x64_S1x512x64x64_0_0_0_0 : ∀ a, (![0, 0, 0, 0] : Fin 4 → Nat) a + S1x512x64x64.size a ≤ S1x512x64x64.size a
  h_S1x512x64x64 : 0 < S1x512x64x64.numel
  shapeCasts_S1x512x64x64_S512x64x64 : S1x512x64x64.ShapeCasts S512x64x64
  inb_S1x3x512_S1x3x512_0_0_0 : ∀ a, (![0, 0, 0] : Fin 3 → Nat) a + S1x3x512.size a ≤ S1x3x512.size a
  h_S1x3x512 : 0 < S1x3x512.numel
  shapeCasts_S1x3x512_S3x512 : S1x3x512.ShapeCasts S3x512
  inb_S3_S3_0 : ∀ a, (![0] : Fin 1 → Nat) a + S3.size a ≤ S3.size a
  h_S3 : 0 < S3.numel
  slices_S3x512_o0_0_S1x512 : S3x512.Slices ![0, 0] S1x512
  shapeCasts_S1x512_S512 : S1x512.ShapeCasts S512
  shapeCasts_S512_S512x1x1 : S512.ShapeCasts S512x1x1
  broadcasts_S512x1x1_S512x64x64 : S512x1x1.Broadcasts S512x64x64
  reduces_S512x64x64_S64x64 : S512x64x64.Reduces [0] S64x64
  slices_S3_o0_S1 : S3.Slices ![0] S1
  inpos_S1_p0 : ∀ a, (![0] : Fin 1 → Nat) a < S1.size a
  inb_S1x3x64x64_S1x1x64x64_0_0_0_0 : ∀ a, (![0, 0, 0, 0] : Fin 4 → Nat) a + S1x1x64x64.size a ≤ S1x3x64x64.size a
  h_S1x1x64x64 : 0 < S1x1x64x64.numel
  shapeCasts_S1x1x64x64_S64x64 : S1x1x64x64.ShapeCasts S64x64
  shapeCasts_S64x64_S1x1x64x64 : S64x64.ShapeCasts S1x1x64x64
  slices_S3x512_o1_0_S1x512 : S3x512.Slices ![1, 0] S1x512
  slices_S3_o1_S1 : S3.Slices ![1] S1
  inb_S1x3x64x64_S1x1x64x64_0_1_0_0 : ∀ a, (![0, 1, 0, 0] : Fin 4 → Nat) a + S1x1x64x64.size a ≤ S1x3x64x64.size a
  slices_S3x512_o2_0_S1x512 : S3x512.Slices ![2, 0] S1x512
  slices_S3_o2_S1 : S3.Slices ![2] S1
  inb_S1x3x64x64_S1x1x64x64_0_2_0_0 : ∀ a, (![0, 2, 0, 0] : Fin 4 → Nat) a + S1x1x64x64.size a ≤ S1x3x64x64.size a
  dot_S16x512_S512x512_S16x512_1_0_0_1_n_n_wf : DotDims.WF S16x512 S512x512 S16x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64x64.size a ≤ S16x512x64x64.size a
  hwx0_0 : ∀ i : grid0.Coords, EltTy.bits .f32 = 32 ∨ (Rect.block (s := S16x512x64x64) S1x512x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S16x3x512.size a
  hwx0_1 : ∀ i : grid0.Coords, EltTy.bits .f32 = 32 ∨ (Rect.block (s := S16x3x512) S1x3x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3.size a ≤ S3.size a
  hwx0_2 : ∀ i : grid0.Coords, EltTy.bits .f32 = 32 ∨ (Rect.block (s := S3) S3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x3x64x64.size a ≤ S16x3x64x64.size a
  hwx0_3 : ∀ i : grid0.Coords, EltTy.bits .f32 = 32 ∨ (Rect.block (s := S16x3x64x64) S1x3x64x64.size (cc0_transform_3 i) (hinb0_3 i)).WholeWords (EltTy.packing .f32)

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf

abbrev win0_0 : Pipeline.Window sig grid0 :=
  Pipeline.Window.ofSpec (Memref.whole main_arg0) S1x512x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x3x64x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x512x64x64 : Shape := ⟨4, ![16, 512, 64, 64]⟩
abbrev S16x512 : Shape := ⟨2, ![16, 512]⟩
abbrev S512x512 : Shape := ⟨2, ![512, 512]⟩
abbrev S512 : Shape := ⟨1, ![512]⟩
abbrev S3x512 : Shape := ⟨2, ![3, 512]⟩
abbrev S3 : Shape := ⟨1, ![3]⟩
abbrev S_ : Shape := ⟨0, ![]⟩
abbrev S1x512 : Shape := ⟨2, ![1, 512]⟩
abbrev S1x3x512 : Shape := ⟨3, ![1, 3, 512]⟩
abbrev S16x1x512 : Shape := ⟨3, ![16, 1, 512]⟩
abbrev S16x3x512 : Shape := ⟨3, ![16, 3, 512]⟩
abbrev S16x3 : Shape := ⟨2, ![16, 3]⟩
abbrev S16x512x4096 : Shape := ⟨3, ![16, 512, 4096]⟩
abbrev S16x4096x512 : Shape := ⟨3, ![16, 4096, 512]⟩
abbrev S16x4096x3 : Shape := ⟨3, ![16, 4096, 3]⟩
abbrev S16x1x3 : Shape := ⟨3, ![16, 1, 3]⟩
abbrev S16x3x4096 : Shape := ⟨3, ![16, 3, 4096]⟩
abbrev S16x3x64x64 : Shape := ⟨4, ![16, 3, 64, 64]⟩
abbrev S1x3x1x1 : Shape := ⟨4, ![1, 3, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S16x512x64x64, .f32⟩
  | .hbm, ⟨1, _⟩ => ⟨S16x512, .f32⟩
  | .hbm, ⟨2, _⟩ => ⟨S512x512, .f32⟩
  | .hbm, ⟨3, _⟩ => ⟨S512, .f32⟩
  | .hbm, ⟨4, _⟩ => ⟨S3x512, .f32⟩
  | .hbm, ⟨5, _⟩ => ⟨S3, .f32⟩
  | .hbm, ⟨6, _⟩ => ⟨S_, .f32⟩
  | .hbm, ⟨7, _⟩ => ⟨S512x512, .f32⟩
  | .hbm, ⟨8, _⟩ => ⟨S512x512, .f32⟩
  | .hbm, ⟨9, _⟩ => ⟨S512x512, .f32⟩
  | .hbm, ⟨10, _⟩ => ⟨S16x512, .f32⟩
  | .hbm, ⟨11, _⟩ => ⟨S1x512, .f32⟩
  | .hbm, ⟨12, _⟩ => ⟨S16x512, .f32⟩
  | .hbm, ⟨13, _⟩ => ⟨S16x512, .f32⟩
  | .hbm, ⟨14, _⟩ => ⟨S1x3x512, .f32⟩
  | .hbm, ⟨15, _⟩ => ⟨S16x1x512, .f32⟩
  | .hbm, ⟨16, _⟩ => ⟨S16x3x512, .f32⟩
  | .hbm, ⟨17, _⟩ => ⟨S16x3x512, .f32⟩
  | .hbm, ⟨18, _⟩ => ⟨S16x3x512, .f32⟩
  | .hbm, ⟨19, _⟩ => ⟨S16x3x512, .f32⟩
  | .hbm, ⟨20, _⟩ => ⟨S_, .f32⟩
  | .hbm, ⟨21, _⟩ => ⟨S16x3, .f32⟩
  | .hbm, ⟨22, _⟩ => ⟨S_, .f32⟩
  | .hbm, ⟨23, _⟩ => ⟨S16x3, .f32⟩
  | .hbm, ⟨24, _⟩ => ⟨S16x3, .f32⟩
  | .hbm, ⟨25, _⟩ => ⟨S16x3, .f32⟩
  | .hbm, ⟨26, _⟩ => ⟨S16x512x4096, .f32⟩
  | .hbm, ⟨27, _⟩ => ⟨S16x4096x512, .f32⟩
  | .hbm, ⟨28, _⟩ => ⟨S16x1x512, .f32⟩
  | .hbm, ⟨29, _⟩ => ⟨S16x4096x512, .f32⟩
  | .hbm, ⟨30, _⟩ => ⟨S16x4096x512, .f32⟩
  | .hbm, ⟨31, _⟩ => ⟨S16x4096x3, .f32⟩
  | .hbm, ⟨32, _⟩ => ⟨S16x1x3, .f32⟩
  | .hbm, ⟨33, _⟩ => ⟨S16x4096x3, .f32⟩
  | .hbm, ⟨34, _⟩ => ⟨S16x4096x3, .f32⟩
  | .hbm, ⟨35, _⟩ => ⟨S16x3x4096, .f32⟩
  | .hbm, ⟨36, _⟩ => ⟨S16x3x64x64, .f32⟩
  | .hbm, ⟨37, _⟩ => ⟨S1x3x1x1, .f32⟩
  | .hbm, ⟨38, _⟩ => ⟨S16x3x64x64, .f32⟩
  | .hbm, ⟨39, _⟩ => ⟨S16x3x64x64, .f32⟩
  | _, _ => ⟨S16x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]

class Facts₀ : Prop where
  bcast_S_S512x512 : S_.BroadcastsInDim S512x512 (![] : Fin 0 → Fin S512x512.rank)
  transposes_S512x512_S512x512_1_0 : S512x512.Transposes [1, 0] S512x512
  bcast_S512_S1x512_1 : S512.BroadcastsInDim S1x512 (![1] : Fin 1 → Fin S1x512.rank)
  bcast_S1x512_S16x512_0_1 : S1x512.BroadcastsInDim S16x512 (![0, 1] : Fin 2 → Fin S16x512.rank)
  bcast_S3x512_S1x3x512_1_2 : S3x512.BroadcastsInDim S1x3x512 (![1, 2] : Fin 2 → Fin S1x3x512.rank)
  bcast_S16x512_S16x1x512_0_2 : S16x512.BroadcastsInDim S16x1x512 (![0, 2] : Fin 2 → Fin S16x1x512.rank)
  bcast_S1x3x512_S16x3x512_0_1_2 : S1x3x512.BroadcastsInDim S16x3x512 (![0, 1, 2] : Fin 3 → Fin S16x3x512.rank)
  bcast_S16x1x512_S16x3x512_0_1_2 : S16x1x512.BroadcastsInDim S16x3x512 (![0, 1, 2] : Fin 3 → Fin S16x3x512.rank)
  reducesTo_S16x3x512_S16x3_d2 : S16x3x512.ReducesTo [2] S16x3
  h_S_ : 0 < S_.numel
  bcast_S_S16x3 : S_.BroadcastsInDim S16x3 (![] : Fin 0 → Fin S16x3.rank)
  shapeCasts_S16x512x64x64_S16x512x4096 : S16x512x64x64.ShapeCasts S16x512x4096
  transposes_S16x512x4096_S16x4096x512_0_2_1 : S16x512x4096.Transposes [0, 2, 1] S16x4096x512
  bcast_S16x1x512_S16x4096x512_0_1_2 : S16x1x512.BroadcastsInDim S16x4096x512 (![0, 1, 2] : Fin 3 → Fin S16x4096x512.rank)
  bcast_S16x3_S16x1x3_0_2 : S16x3.BroadcastsInDim S16x1x3 (![0, 2] : Fin 2 → Fin S16x1x3.rank)
  bcast_S16x1x3_S16x4096x3_0_1_2 : S16x1x3.BroadcastsInDim S16x4096x3 (![0, 1, 2] : Fin 3 → Fin S16x4096x3.rank)
  transposes_S16x4096x3_S16x3x4096_0_2_1 : S16x4096x3.Transposes [0, 2, 1] S16x3x4096
  shapeCasts_S16x3x4096_S16x3x64x64 : S16x3x4096.ShapeCasts S16x3x64x64
  bcast_S3_S1x3x1x1_1 : S3.BroadcastsInDim S1x3x1x1 (![1] : Fin 1 → Fin S1x3x1x1.rank)
  bcast_S1x3x1x1_S16x3x64x64_0_1_2_3 : S1x3x1x1.BroadcastsInDim S16x3x64x64 (![0, 1, 2, 3] : Fin 4 → Fin S16x3x64x64.rank)
  dot_S16x512_S512x512_S16x512_1_0_0_1_n_n_wf : DotDims.WF S16x512 S512x512 S16x512 [1] [0] [0] [1] [] []
  dot_S16x4096x512_S3x512_S16x4096x3_2_1_01_0_n_n_wf : DotDims.WF S16x4096x512 S3x512 S16x4096x3 [2] [1] [0, 1] [0] [] []

variable [Facts₀]

def dot_S16x512_S512x512_S16x512_1_0_0_1_n_n : DotDims S16x512 S512x512 S16x512 where
  lhsContracting := [1]
  rhsContracting := [0]
  lhsNonContracting := [0]
  rhsNonContracting := [1]
  lhsBatch := []
  rhsBatch := []
  wf := dot_S16x512_S512x512_S16x512_1_0_0_1_n_n_wf
def dot_S16x4096x512_S3x512_S16x4096x3_2_1_01_0_n_n : DotDims S16x4096x512 S3x512 S16x4096x3 where
  lhsContracting := [2]
  rhsContracting := [1]
  lhsNonContracting := [0, 1]
  rhsNonContracting := [0]
  lhsBatch := []
  rhsBatch := []
  wf := dot_S16x4096x512_S3x512_S16x4096x3_2_1_01_0_n_n_wf

class Facts : Prop extends Facts₀ where

variable [Facts]
-- ==== Proof.LibScaledSum.lean ====
/-
  Sums on the extended reals scaled by a non-negative real factor.

  On `EReal` multiplication does not distribute over addition in general (`⊤ + ⊥ = ⊥`), but it does when the
  factor is a non-negative real: `(y + z) · d = y · d + z · d` for `0 ≤ d`, `d ≠ ⊤`, whatever `y` and `z` are.
  By induction the same holds for a finite sum (`sum_mul_of_nonneg_of_ne_top`). Such factors arise as
  reciprocal square roots: `Ideal.rsqrt z` is a non-negative real for every `0 < z`, the value `⊤` included
  (`rsqrt ⊤ = 0`), and a sum of squares plus a positive constant is such a `z` with no assumption on the
  summands, since `a · a ≥ 0` for every extended real (`⊥ · ⊥ = ⊤`).

  `scaled_sum_eq` is the law a weight-demodulated channel contraction rests on: scaling every weight by `d`
  before the contraction equals scaling the contraction's result by `d`,
  `∑ x·((w·s)·d) + β = (∑ (x·s)·w)·d + β`.
-/
import Idealize.ShloMosaic.PureOps.Ideal
import Idealize.ShloMosaic.PureOps.Ideal.Laws

noncomputable section

namespace ScaledSum

open Idealize.ShloMosaic
open scoped BigOperators

/-- A non-negative real factor distributes over a finite sum of extended reals. -/
theorem sum_mul_of_nonneg_of_ne_top {ι : Type*} (s : Finset ι) (a : ι → EReal) {d : EReal} (h0 : 0 ≤ d) (ht : d ≠ ⊤) :
    (∑ c ∈ s, a c) * d = ∑ c ∈ s, a c * d := by
  classical
  induction s using Finset.induction_on with
  | empty => simp
  | insert i s hi ih =>
    rw [Finset.sum_insert hi, Finset.sum_insert hi, EReal.right_distrib_of_nonneg_of_ne_top h0 ht, ih]

/-- A square is non-negative on the extended reals: `⊥ · ⊥ = ⊤ · ⊤ = ⊤`. -/
theorem mul_self_nonneg (a : EReal) : 0 ≤ a * a := by
  induction a using EReal.rec with
  | bot => rw [EReal.bot_mul_bot]; exact le_top
  | coe r => rw [← EReal.coe_mul]; exact EReal.coe_nonneg.mpr (_root_.mul_self_nonneg r)
  | top => rw [EReal.top_mul_top]; exact le_top

/-- A sum of squares from a zero start, plus a positive constant, is positive — for any extended-real summands. -/
theorem sum_sq_add_pos {ι : Type*} [Fintype ι] (a : ι → EReal) {z ε : EReal} (hz : z = 0) (hε : 0 < ε) :
    0 < (z + ∑ c, a c * a c) + ε := by
  subst hz
  rw [zero_add]
  exact lt_of_lt_of_le hε (le_add_of_nonneg_left (Finset.sum_nonneg fun c _ => mul_self_nonneg (a c)))

/-- The reciprocal square root of a positive extended real is non-negative (`rsqrt ⊤ = 0`). -/
theorem rsqrt_nonneg_of_pos {z : EReal} (hz : 0 < z) : 0 ≤ Ideal.rsqrt z := by
  induction z using EReal.rec with
  | bot => exact absurd hz (by simp)
  | coe r =>
    have hr : 0 < r := EReal.coe_pos.mp hz
    rw [Ideal.rsqrt_coe, if_neg (not_lt.mpr hr.le), if_neg hr.ne']
    exact EReal.coe_nonneg.mpr (inv_nonneg.mpr (Real.sqrt_nonneg r))
  | top => rw [Ideal.rsqrt_top]

/-- and it is a real number: never `⊤` (the pole is at zero). -/
theorem rsqrt_ne_top_of_pos {z : EReal} (hz : 0 < z) : Ideal.rsqrt z ≠ ⊤ := by
  induction z using EReal.rec with
  | bot => exact absurd hz (by simp)
  | coe r =>
    have hr : 0 < r := EReal.coe_pos.mp hz
    rw [Ideal.rsqrt_coe, if_neg (not_lt.mpr hr.le), if_neg hr.ne']
    exact EReal.coe_ne_top _
  | top => rw [Ideal.rsqrt_top]; exact EReal.zero_ne_top

/-- The f32 pattern `0x322BCC77` (the nearest f32 to `1e-8`) denotes a positive number. -/
theorem eps_pos : (0 : EReal) < Ideal.ofBits .f32 0x322BCC77#32 := by
  have h : Ideal.ofBits .f32 0x322BCC77#32 = (((11258999 : ℝ) * ((2 : ℝ) ^ 50)⁻¹ : ℝ) : EReal) := by
    simp [Ideal.ofBits, Ideal.ieee]
  rw [h, EReal.coe_pos]
  positivity

/-- Scaling every weight `w c · s c` by `d` before contracting against `x` equals contracting `x · s` against `w`
    and scaling the result by `d`, when `d` is a non-negative real. -/
theorem scaled_sum_eq {ι : Type*} [Fintype ι] (x s w : ι → EReal) {d : EReal} (h0 : 0 ≤ d) (ht : d ≠ ⊤) (β : EReal) :
    (∑ c, x c * ((w c * s c) * d)) + β = (∑ c, (x c * s c) * w c) * d + β := by
  rw [sum_mul_of_nonneg_of_ne_top _ _ h0 ht]
  congr 1
  refine Finset.sum_congr rfl fun c _ => ?_
  rw [mul_comm (w c) (s c), ← mul_assoc, ← mul_assoc]

end ScaledSum

end
-- ==== Proof.Demod.lean ====
/-
  The demodulation coefficients are non-negative reals.

  Both programs compute, per batch `b` and output channel `o`, the coefficient
  `d(b,o) = rsqrt (∑_c ww(b,o,c)² + ε)` of the modulated weights `ww`, with `ε` the f32 nearest `1e-8`. The sum of
  squares is non-negative whatever the weights are — on the extended reals a square is never negative — and `ε` is
  positive, so the radicand lies in `(0, ⊤]` and its reciprocal square root is a real number `≥ 0`. No hypothesis on
  the inputs is used. This is what lets `d` be moved across the channel contraction.
-/
import proofs.«150858_j59390807769597_1_alg».proof.Proof.Gen.ReferenceIdeal.Read
import proofs.«150858_j59390807769597_1_alg».proof.Proof.LibScaledSum

noncomputable section

namespace Cert.Demod

open Cert.ReferenceIdeal Cert.ReferenceIdeal.Read Idealize.ShloMosaic

variable (x1 : (⟨S16x512, .f32⟩ : BufTy).Contents (Elt Ideal)) (x2 : (⟨S512x512, .f32⟩ : BufTy).Contents (Elt Ideal))
  (x3 : (⟨S512, .f32⟩ : BufTy).Contents (Elt Ideal)) (x4 : (⟨S3x512, .f32⟩ : BufTy).Contents (Elt Ideal))

/-- The radicand `∑_c ww(b,o,c)² + ε` is positive at every `(b,o)`. -/
theorem radicand_pos (j : S16x3.Idx) : 0 < val_main_v15 (F := Ideal) x1 x2 x3 x4 j := by
  rw [val_main_v15_apply, val_main_v13_apply, val_main_v14_apply, val_main_cst_1_apply, val_main_cst_0_apply]
  simp only [val_main_v12_apply, Ideal.addf_def, Ideal.mulf_def, Ideal.ofBits_def]
  exact ScaledSum.sum_sq_add_pos _ Ideal.ofBits_zero_f32 ScaledSum.eps_pos

/-- The coefficient `d(b,o)` is non-negative, -/
theorem coef_nonneg (j : S16x3.Idx) : 0 ≤ val_main_v16 (F := Ideal) x1 x2 x3 x4 j := by
  rw [val_main_v16_apply, Ideal.hostUnary_rsqrt_def]
  exact ScaledSum.rsqrt_nonneg_of_pos (radicand_pos x1 x2 x3 x4 j)

/-- and a real number. -/
theorem coef_ne_top (j : S16x3.Idx) : val_main_v16 (F := Ideal) x1 x2 x3 x4 j ≠ ⊤ := by
  rw [val_main_v16_apply, Ideal.hostUnary_rsqrt_def]
  exact ScaledSum.rsqrt_ne_top_of_pos (radicand_pos x1 x2 x3 x4 j)

end Cert.Demod

end
-- ==== Proof.ModWeights.lean ====
/-
  The combined weights the kernel's second window stages.

  Before the launch the host computes, from the style input `w`, the affine layer `(aw, ab)` and the convolution
  weight, the array `comb(b,o,c) = ww(b,o,c) · d(b,o)` with `ww(b,o,c) = weight(o,c) · styles(b,c)` the modulated
  weight and `d(b,o) = rsqrt (∑_c ww(b,o,c)² + ε)` the demodulation coefficient. The reference computes `styles`,
  `ww` and `d` by the same operations, so the array is written here over the reference's own stages: `window1_eq`
  as whole arrays, `window1_apply` at an index `(b, o, c)`.
-/
import proofs.«150858_j59390807769597_1_alg».proof.Proof.Gen.KernelIdeal.Value
import proofs.«150858_j59390807769597_1_alg».proof.Proof.Gen.ReferenceIdeal.Read
import Idealize.ShloMosaic.Lib.StableHlo.Run
import Idealize.ShloMosaic.Lib.ValueIdx

noncomputable section

namespace Cert.ModWeights

open Cert.KernelIdeal Cert.KernelIdeal.Gen Idealize.ShloMosaic Idealize.ShloMosaic.TcCoe Idealize.SL.Sem
open Idealize.ShloMosaic.ValueIdx Idealize.ShloMosaic.StableHlo

/-- The modulated weight at `(b, o, c)`: the convolution weight at `(o, c)` times the style at `(b, c)`. -/
theorem modulated_apply (x1 : S16x512.Idx → EReal) (x2 : S512x512.Idx → EReal) (x3 : S512.Idx → EReal) (x4 : S3x512.Idx → EReal)
    (b : Fin 16) (o : Fin 3) (k : Fin 512) :
    Cert.ReferenceIdeal.Read.val_main_v11 (F := Ideal) x1 x2 x3 x4 (ix3 b o k)
      = x4 (ix2 o k) * Cert.ReferenceIdeal.Read.val_main_v6 (F := Ideal) x1 x2 x3 (ix2 b k) := by
  rw [Cert.ReferenceIdeal.Read.val_main_v11_apply, Cert.ReferenceIdeal.Read.val_main_v9_apply,
    Cert.ReferenceIdeal.Read.val_main_v7_apply, Cert.ReferenceIdeal.Read.val_main_v10_apply,
    Cert.ReferenceIdeal.Read.val_main_v8_apply]
  have e4 : Cert.ReferenceIdeal.Read.idx_main_v7 (Cert.ReferenceIdeal.Read.idx_main_v9 (ix3 b o k)) = ix2 o k :=
    funext fun a => Fin.ext (by match a with | ⟨0, _⟩ => rfl | ⟨1, _⟩ => rfl)
  have e6 : Cert.ReferenceIdeal.Read.idx_main_v8 (Cert.ReferenceIdeal.Read.idx_main_v10 (ix3 b o k)) = ix2 b k :=
    funext fun a => Fin.ext (by match a with | ⟨0, _⟩ => rfl | ⟨1, _⟩ => rfl)
  rw [e4, e6]
  rfl

variable (m : (ℓ : Loc nD τ sig) → Buf (Elt Ideal) ℓ) (c : Dev nD)

/-- The argument arrays the host operations read, as launched. -/
abbrev A1 : S16x512.Idx → EReal := m ((c : Thread nD τ).loc main_arg1)
abbrev A2 : S512x512.Idx → EReal := m ((c : Thread nD τ).loc main_arg2)
abbrev A3 : S512.Idx → EReal := m ((c : Thread nD τ).loc main_arg3)
abbrev A4 : S3x512.Idx → EReal := m ((c : Thread nD τ).loc main_arg4)

/-- The array the second window stages, as the region finds it: the modulated weights times the demodulation
    coefficients broadcast along the channel axis. -/
theorem window1_eq : (V m c main_v19 : S16x3x512.Idx → EReal)
    = mulf (F := Ideal) (s := S16x3x512) (φ := .f32) (Cert.ReferenceIdeal.Read.val_main_v11 (F := Ideal) (A1 m c) (A2 m c) (A3 m c) (A4 m c))
        (broadcastInDim S16x3x512 ![0, 1, 2] bcast_S16x3x1_S16x3x512_0_1_2
          (broadcastInDim S16x3x1 ![0, 1] bcast_S16x3_S16x3x1_0_1
            (Cert.ReferenceIdeal.Read.val_main_v16 (F := Ideal) (A1 m c) (A2 m c) (A3 m c) (A4 m c)))) := by
  show StableHlo.after hostOps0 (fun b => m (c, b)) (Proc.devRef .tc main_v19) = _
  after_results_simp
  rfl

/-- At `(b, o, c)`: `(weight(o,c) · styles(b,c)) · d(b,o)`. -/
theorem window1_apply (b : Fin 16) (o : Fin 3) (k : Fin 512) :
    (V m c main_v19 : S16x3x512.Idx → EReal) (ix3 b o k)
      = (A4 m c (ix2 o k) * Cert.ReferenceIdeal.Read.val_main_v6 (F := Ideal) (A1 m c) (A2 m c) (A3 m c) (ix2 b k))
        * Cert.ReferenceIdeal.Read.val_main_v16 (F := Ideal) (A1 m c) (A2 m c) (A3 m c) (A4 m c) (ix2 b o) := by
  rw [window1_eq]
  show Cert.ReferenceIdeal.Read.val_main_v11 (F := Ideal) (A1 m c) (A2 m c) (A3 m c) (A4 m c) (ix3 b o k)
      * broadcastInDim S16x3x512 ![0, 1, 2] bcast_S16x3x1_S16x3x512_0_1_2
          (broadcastInDim S16x3x1 ![0, 1] bcast_S16x3_S16x3x1_0_1
            (Cert.ReferenceIdeal.Read.val_main_v16 (F := Ideal) (A1 m c) (A2 m c) (A3 m c) (A4 m c))) (ix3 b o k) = _
  rw [modulated_apply]
  congr 1
  refine (broadcastInDim_apply _ _ _ (ix3 b o k) (ix3 b o (0 : Fin 1)) (fun a => by
    match a with | ⟨0, _⟩ => rfl | ⟨1, _⟩ => rfl | ⟨2, _⟩ => rfl)).trans ?_
  exact broadcastInDim_apply _ _ _ (ix3 b o (0 : Fin 1)) (ix2 b o) (fun a => by
    match a with | ⟨0, _⟩ => rfl | ⟨1, _⟩ => rfl)

end Cert.ModWeights

end
-- ==== Proof.Pieces.lean ====
/-
  What the kernel body stores, at an index.

  At one batch the body holds the activation block `x[512,64,64]` (channels, rows, columns), the combined weights
  `sw[3,512]` and the bias `[3]`, and stores, for each output channel `o = 0, 1, 2`, the plane
  `y_o(h,w) = ∑_c x(c,h,w) · sw(o,c) + bias(o)`: row `o` of the weights is cut out, laid along the channel axis,
  broadcast over the plane, multiplied into the activation and summed over the channel axis; the bias entry is
  splat over the plane and added. `plane_apply` reads that chain at `(h, w)` for any row `o` given by its slice
  offsets; the three payloads are its instances.
-/
import proofs.«150858_j59390807769597_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.Pieces

open Cert.KernelIdeal Cert.KernelIdeal.Gen Idealize.ShloMosaic Idealize.ShloMosaic.ValueIdx
open scoped BigOperators

/-- Row `o` of the weights, laid along the channel axis and broadcast over the plane, reads `W(o, c)` at `(c, h, w)`. -/
theorem weight_row_apply (W : FVec Ideal S3x512 .f32) (off : Fin 2 → Nat) (hs : S3x512.Slices off S1x512) (o : Fin 3)
    (ho0 : off 0 = o.val) (ho1 : off 1 = 0) (k : Fin 512) (h w : Fin 64) :
    broadcastTo S512x64x64 (shapeCast S512x1x1 (shapeCast S512 (extractStridedSlice S1x512 off W hs) shapeCasts_S1x512_S512)
      shapeCasts_S512_S512x1x1) broadcasts_S512x1x1_S512x64x64 (ix3 k h w) = W (ix2 o k) := by
  refine (broadcastTo_apply _ _ (ix3 k h w) (ix3 k (0 : Fin 1) (0 : Fin 1)) (fun a => by
    match a with | ⟨0, _⟩ => rfl | ⟨1, _⟩ => rfl | ⟨2, _⟩ => rfl)).trans ?_
  refine (shapeCast_apply _ _ (ix3 k (0 : Fin 1) (0 : Fin 1)) (ix1 k) (by
    rw [Shape.rowMajor_val_one, Shape.rowMajor_val_three]; show k.val = (k.val * 1 + 0) * 1 + 0; omega)).trans ?_
  refine (shapeCast_apply _ _ (ix1 k) (ix2 (0 : Fin 1) k) (by
    rw [Shape.rowMajor_val_two, Shape.rowMajor_val_one]; show 0 * 512 + k.val = k.val; omega)).trans ?_
  exact extractStridedSlice_apply off W hs (ix2 (0 : Fin 1) k) (ix2 o k) (fun a => by
    match a with
    | ⟨0, _⟩ => show o.val = off 0 + 0; omega
    | ⟨1, _⟩ => show k.val = off 1 + k.val; omega)

/-- The channel contraction at `(h, w)`: the sum over the channel axis of activation times row `o` of the weights. -/
theorem contraction_apply (X : FVec Ideal S512x64x64 .f32) (W : FVec Ideal S3x512 .f32) (off : Fin 2 → Nat)
    (hs : S3x512.Slices off S1x512) (o : Fin 3) (ho0 : off 0 = o.val) (ho1 : off 1 = 0) (hφ : FKind.Formats .f32)
    (hacc : (0x00000000#32 : BitVec 32) = FKind.add.neutral .f32 hφ) (h w : Fin 64) :
    multiReduction (F := Ideal) .add [0] S64x64 (mulf X (broadcastTo S512x64x64 (shapeCast S512x1x1 (shapeCast S512
        (extractStridedSlice S1x512 off W hs) shapeCasts_S1x512_S512) shapeCasts_S512_S512x1x1) broadcasts_S512x1x1_S512x64x64))
      0x00000000#32 reduces_S512x64x64_S64x64 hφ hacc (ix2 h w)
      = ∑ k : Fin 512, X (ix3 k h w) * W (ix2 o k) := by
  refine (Ideal.multiReduction_add_single _ _ reduces_S512x64x64_S64x64 hφ hacc (ix2 h w)).trans ?_
  refine Finset.sum_congr rfl fun k _ => ?_
  have e : reduces_S512x64x64_S64x64.lift (ix2 h w) k = ix3 k h w :=
    funext fun a => Fin.ext (by match a with | ⟨0, _⟩ => rfl | ⟨1, _⟩ => rfl | ⟨2, _⟩ => rfl)
  rw [e]
  exact congrArg (X (ix3 k h w) * ·) (weight_row_apply W off hs o ho0 ho1 k h w)

/-- One output channel's plane, as the body stores it, at `(h, w)`: the contraction of the batch's activation block
    against row `o` of its weights block, plus entry `o` of the bias. -/
theorem plane_apply (x0 : FVec Ideal S1x512x64x64 .f32) (x1 : FVec Ideal S1x3x512 .f32) (x2 : FVec Ideal S3 .f32)
    (off : Fin 2 → Nat) (hs : S3x512.Slices off S1x512) (off1 : Fin 1 → Nat) (hs1 : S3.Slices off1 S1) (o : Fin 3)
    (ho0 : off 0 = o.val) (ho1 : off 1 = 0) (hb : off1 0 = o.val) (hφ : FKind.Formats .f32)
    (hacc : (0x00000000#32 : BitVec 32) = FKind.add.neutral .f32 hφ) (u v : Fin 1) (h w : Fin 64) :
    shapeCast S1x1x64x64 (addf (multiReduction (F := Ideal) .add [0] S64x64 (mulf (shapeCast S512x64x64 x0 shapeCasts_S1x512x64x64_S512x64x64)
        (broadcastTo S512x64x64 (shapeCast S512x1x1 (shapeCast S512 (extractStridedSlice S1x512 off
          (shapeCast S3x512 x1 shapeCasts_S1x3x512_S3x512) hs) shapeCasts_S1x512_S512) shapeCasts_S512_S512x1x1)
          broadcasts_S512x1x1_S512x64x64)) 0x00000000#32 reduces_S512x64x64_S64x64 hφ hacc)
      (broadcast S64x64 (extractAt ![0] (extractStridedSlice S1 off1 x2 hs1) inpos_S1_p0))) shapeCasts_S64x64_S1x1x64x64 (ix4 u v h w)
      = (∑ k : Fin 512, x0 (ix4 (0 : Fin 1) k h w) * x1 (ix3 (0 : Fin 1) o k)) + x2 (ix1 o) := by
  refine (shapeCast_apply _ _ (ix4 u v h w) (ix2 h w) (by
    rw [Shape.rowMajor_val_two, Shape.rowMajor_val_four]
    show h.val * 64 + w.val = ((u.val * 1 + v.val) * 64 + h.val) * 64 + w.val
    have := u.isLt; have := v.isLt; omega)).trans ?_
  show multiReduction (F := Ideal) .add [0] S64x64 _ 0x00000000#32 reduces_S512x64x64_S64x64 hφ hacc (ix2 h w)
      + extractStridedSlice S1 off1 x2 hs1 (fun a => ⟨(![0] : Fin 1 → Nat) a, inpos_S1_p0 a⟩) = _
  refine congrArg₂ (· + ·) ?_ ?_
  · refine (contraction_apply _ _ off hs o ho0 ho1 hφ hacc h w).trans ?_
    refine Finset.sum_congr rfl fun k _ => congrArg₂ (· * ·) ?_ ?_
    · exact shapeCast_apply _ _ (ix3 k h w) (ix4 (0 : Fin 1) k h w) (by
        rw [Shape.rowMajor_val_four, Shape.rowMajor_val_three]
        show ((0 * 512 + k.val) * 64 + h.val) * 64 + w.val = (k.val * 64 + h.val) * 64 + w.val; omega)
    · exact shapeCast_apply _ _ (ix2 o k) (ix3 (0 : Fin 1) o k) (by
        rw [Shape.rowMajor_val_three, Shape.rowMajor_val_two]
        show (0 * 3 + o.val) * 512 + k.val = o.val * 512 + k.val; omega)
  · exact extractStridedSlice_apply off1 x2 hs1 (fun a => ⟨(![0] : Fin 1 → Nat) a, inpos_S1_p0 a⟩) (ix1 o) (fun a => by
      match a with | ⟨0, _⟩ => show o.val = off1 0 + 0; omega)

/-- The three stored planes. -/
theorem plane0_apply (x0 : FVec Ideal S1x512x64x64 .f32) (x1 : FVec Ideal S1x3x512 .f32) (x2 : FVec Ideal S3 .f32)
    (u v : Fin 1) (h w : Fin 64) :
    k0_pay4 (F := Ideal) x0 x1 x2 (ix4 u v h w)
      = (∑ k : Fin 512, x0 (ix4 (0 : Fin 1) k h w) * x1 (ix3 (0 : Fin 1) (0 : Fin 3) k)) + x2 (ix1 (0 : Fin 3)) := by
  unfold k0_pay4 k0_pay3 k0_pay2
  exact plane_apply x0 x1 x2 ![0, 0] _ ![0] _ 0 rfl rfl rfl _ _ u v h w

theorem plane1_apply (x0 : FVec Ideal S1x512x64x64 .f32) (x1 : FVec Ideal S1x3x512 .f32) (x2 : FVec Ideal S3 .f32)
    (u v : Fin 1) (h w : Fin 64) :
    k0_pay5 (F := Ideal) x0 x1 x2 (ix4 u v h w)
      = (∑ k : Fin 512, x0 (ix4 (0 : Fin 1) k h w) * x1 (ix3 (0 : Fin 1) (1 : Fin 3) k)) + x2 (ix1 (1 : Fin 3)) := by
  unfold k0_pay5 k0_pay3 k0_pay2
  exact plane_apply x0 x1 x2 ![1, 0] _ ![1] _ 1 rfl rfl rfl _ _ u v h w

theorem plane2_apply (x0 : FVec Ideal S1x512x64x64 .f32) (x1 : FVec Ideal S1x3x512 .f32) (x2 : FVec Ideal S3 .f32)
    (u v : Fin 1) (h w : Fin 64) :
    k0_pay1 (F := Ideal) (k0_pay6 x0 x1) (k0_pay7 x2) (ix4 u v h w)
      = (∑ k : Fin 512, x0 (ix4 (0 : Fin 1) k h w) * x1 (ix3 (0 : Fin 1) (2 : Fin 3) k)) + x2 (ix1 (2 : Fin 3)) := by
  unfold k0_pay1 k0_pay6 k0_pay7 k0_pay3 k0_pay2
  exact plane_apply x0 x1 x2 ![2, 0] _ ![2] _ 2 rfl rfl rfl _ _ u v h w

end Cert.Pieces

end
-- ==== Proof.RefEntry.lean ====
/-
  The reference at an index.

  The reference flattens the activation's plane to `n = 64·h + w`, scales it by the styles, contracts it against the
  convolution weight over the channel axis, scales the result by the demodulation coefficient, un-flattens the plane
  and adds the bias. Read at `(b, o, h, w)` through the generated stage lemmas this is
  `(∑_c (x(b,c,h,w) · styles(b,c)) · weight(o,c)) · d(b,o) + bias(o)`, the styles and `d` being the reference's own
  stages, left unopened.
-/
import proofs.«150858_j59390807769597_1_alg».proof.Proof.Gen.ReferenceIdeal.Read
import Idealize.ShloMosaic.Lib.ValueIdx

noncomputable section

namespace Cert.RefEntry

open Cert.ReferenceIdeal Cert.ReferenceIdeal.Read Idealize.ShloMosaic Idealize.ShloMosaic.ValueIdx
open scoped BigOperators

theorem reference_apply (x0 : S16x512x64x64.Idx → EReal) (x1 : S16x512.Idx → EReal) (x2 : S512x512.Idx → EReal)
    (x3 : S512.Idx → EReal) (x4 : S3x512.Idx → EReal) (x5 : S3.Idx → EReal) (b : Fin 16) (o : Fin 3) (h w : Fin 64) :
    val_main_v30 (F := Ideal) x0 x1 x2 x3 x4 x5 (ix4 b o h w)
      = (∑ k : Fin 512, (x0 (ix4 b k h w) * val_main_v6 (F := Ideal) x1 x2 x3 (ix2 b k)) * x4 (ix2 o k))
          * val_main_v16 (F := Ideal) x1 x2 x3 x4 (ix2 b o) + x5 (ix1 o) := by
  have hb : b.val < 16 := b.isLt
  have ho : o.val < 3 := o.isLt
  have hh : h.val < 64 := h.isLt
  have hw : w.val < 64 := w.isLt
  have hn : h.val * 64 + w.val < 4096 := by omega
  -- the flattened plane position of (h, w)
  have e26 : idx_main_v26 (idx_main_v27 (ix4 b o h w)) = ix3 b (⟨h.val * 64 + w.val, hn⟩ : Fin 4096) o :=
    funext fun a => Fin.ext (by
      match a with
      | ⟨0, _⟩ => show (((b.val * 3 + o.val) * 64 + h.val) * 64 + w.val) / 12288 = b.val; omega
      | ⟨1, _⟩ => show (((b.val * 3 + o.val) * 64 + h.val) * 64 + w.val) % 4096 = h.val * 64 + w.val; omega
      | ⟨2, _⟩ => show (((b.val * 3 + o.val) * 64 + h.val) * 64 + w.val) / 4096 % 3 = o.val; omega)
  rw [val_main_v30_apply, val_main_v27_apply, val_main_v26_apply, val_main_v25_apply, val_main_v22_apply,
    val_main_v24_apply, val_main_v23_apply, val_main_v29_apply, val_main_v28_apply, e26]
  refine congrArg₂ (· + ·) (congrArg₂ (· * ·) (Finset.sum_congr rfl fun k _ => ?_) (congrArg _ ?_)) (congrArg _ ?_)
  · have hk : k.val < 512 := k.isLt
    rw [val_main_v21_apply, val_main_v18_apply, val_main_v17_apply, val_main_v20_apply, val_main_v19_apply]
    refine congrArg₂ (· * ·) (congrArg₂ (· * ·) (congrArg _ ?_) (congrArg _ ?_)) (congrArg _ ?_)
    · exact funext fun a => Fin.ext (by
        match a with
        | ⟨0, _⟩ => show ((b.val * 512 + k.val) * 4096 + (h.val * 64 + w.val)) / 2097152 = b.val; omega
        | ⟨1, _⟩ => show ((b.val * 512 + k.val) * 4096 + (h.val * 64 + w.val)) / 4096 % 512 = k.val; omega
        | ⟨2, _⟩ => show ((b.val * 512 + k.val) * 4096 + (h.val * 64 + w.val)) / 64 % 64 = h.val; omega
        | ⟨3, _⟩ => show ((b.val * 512 + k.val) * 4096 + (h.val * 64 + w.val)) % 64 = w.val; omega)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl | ⟨1, _⟩ => rfl)
  · exact funext fun a => Fin.ext (by match a with | ⟨0, _⟩ => rfl)

end Cert.RefEntry

end
-- ==== Proof.Blocks.lean ====
/-
  From one batch's block to the whole output array.

  The launch runs one grid point per batch `b`: the point stages batch `b` of the activation, batch `b` of the
  combined weights and the whole bias, and writes back batch `b` of the output. The body's three stores tile its
  output block, so the block is ONE function of the three input blocks (`blockFn`, `body_eq`):
  `(o, h, w) ↦ ∑_c x(c,h,w) · sw(o,c) + bias(o)`. With the combined weights `sw(o,c) = (weight(o,c) · styles(b,c)) · d(b,o)`
  the demodulation coefficient `d(b,o)`, a non-negative real, moves out of the sum (`entry_eq`), which is the
  reference's value at `(b, o, h, w)`. Every index of the output lies in its batch's block, so the output array ends
  as the reference's function of the arguments (`final`, `run`).
-/
import proofs.«150858_j59390807769597_1_alg».proof.Proof.Gen.KernelIdeal.Value
import proofs.«150858_j59390807769597_1_alg».proof.Proof.Gen.ReferenceIdeal.Read
import proofs.«150858_j59390807769597_1_alg».proof.Proof.LibScaledSum
import proofs.«150858_j59390807769597_1_alg».proof.Proof.Demod
import proofs.«150858_j59390807769597_1_alg».proof.Proof.ModWeights
import proofs.«150858_j59390807769597_1_alg».proof.Proof.Pieces
import proofs.«150858_j59390807769597_1_alg».proof.Proof.RefEntry

noncomputable section

namespace Cert.Blocks

open Cert.KernelIdeal Cert.KernelIdeal.Gen Idealize.ShloMosaic Idealize.ShloMosaic.TcCoe Idealize.SL.Sem
open Idealize.ShloMosaic.ValueIdx Cert.ModWeights
open Idealize.ShloMosaic.Pipeline (Dat)
open scoped BigOperators

/-! ## The body's block as one function -/

theorem zeros4 : (![0, 0, 0, 0] : Fin 4 → Nat) = fun _ => 0 := funext fun a => by fin_cases a <;> rfl
theorem zeros3 : (![0, 0, 0] : Fin 3 → Nat) = fun _ => 0 := funext fun a => by fin_cases a <;> rfl
theorem zeros1 : (![0] : Fin 1 → Nat) = fun _ => 0 := funext fun a => by fin_cases a <;> rfl

/-- One batch's output block from its input blocks: at `(·, o, h, w)` the contraction over the channels of the
    activation at `(c, h, w)` against the weights at `(o, c)`, plus the bias at `o`. -/
def blockFn (x0 : FVec Ideal S1x512x64x64 .f32) (x1 : FVec Ideal S1x3x512 .f32) (x2 : FVec Ideal S3 .f32) :
    S1x3x64x64.Idx → EReal := fun y =>
  (∑ k : Fin 512, x0 (ix4 (0 : Fin 1) k (⟨(y 2).val, (y 2).isLt⟩ : Fin 64) (⟨(y 3).val, (y 3).isLt⟩ : Fin 64))
      * x1 (ix3 (0 : Fin 1) (⟨(y 1).val, (y 1).isLt⟩ : Fin 3) k))
    + x2 (ix1 (⟨(y 1).val, (y 1).isLt⟩ : Fin 3))

theorem blockFn_apply (x0 : FVec Ideal S1x512x64x64 .f32) (x1 : FVec Ideal S1x3x512 .f32) (x2 : FVec Ideal S3 .f32)
    (y : S1x3x64x64.Idx) (o : Fin 3) (h w : Fin 64) (h1 : (y 1).val = o.val) (h2 : (y 2).val = h.val) (h3 : (y 3).val = w.val) :
    blockFn x0 x1 x2 y = (∑ k : Fin 512, x0 (ix4 (0 : Fin 1) k h w) * x1 (ix3 (0 : Fin 1) o k)) + x2 (ix1 o) := by
  have e1 : (⟨(y 1).val, (y 1).isLt⟩ : Fin 3) = o := Fin.ext h1
  have e2 : (⟨(y 2).val, (y 2).isLt⟩ : Fin 64) = h := Fin.ext h2
  have e3 : (⟨(y 3).val, (y 3).isLt⟩ : Fin 64) = w := Fin.ext h3
  unfold blockFn
  rw [e1, e2, e3]

/-- The three stores tile the block: what the body leaves is `blockFn` of what it loaded. -/
theorem body_eq (x0 : FVec Ideal S1x512x64x64 .f32) (x1 : FVec Ideal S1x3x512 .f32) (x2 : FVec Ideal S3 .f32) :
    out0_3 (F := Ideal) x0 x1 x2 = blockFn x0 x1 x2 := by
  funext y
  unfold out0_3
  rw [View.ld_unit_zero (S := S1x512x64x64) zeros4, View.ld_unit_zero (S := S1x3x512) zeros3, View.ld_unit_zero (S := S3) zeros1]
  refine View.canon_apply_of_pieces (Val := Elt Ideal) (blockFn x0 x1 x2) _ ?_ y (cover0_3 _ _ _ y)
  intro p hp x
  simp only [List.mem_cons, List.not_mem_nil, or_false] at hp
  rcases hp with rfl | rfl | rfl
  all_goals obtain ⟨u, v, h, w, rfl⟩ : ∃ (u v : Fin 1) (h w : Fin 64), x = ix4 u v h w := ⟨x 0, x 1, x 2, x 3, eq_ix4 x⟩
  · refine (Pieces.plane2_apply x0 x1 x2 u v h w).trans (blockFn_apply x0 x1 x2 _ 2 h w ?_ ?_ ?_).symm
    · show 2 + 1 * v.val = 2; have := v.isLt; omega
    · show 0 + 1 * h.val = h.val; omega
    · show 0 + 1 * w.val = w.val; omega
  · refine (Pieces.plane1_apply x0 x1 x2 u v h w).trans (blockFn_apply x0 x1 x2 _ 1 h w ?_ ?_ ?_).symm
    · show 1 + 1 * v.val = 1; have := v.isLt; omega
    · show 0 + 1 * h.val = h.val; omega
    · show 0 + 1 * w.val = w.val; omega
  · refine (Pieces.plane0_apply x0 x1 x2 u v h w).trans (blockFn_apply x0 x1 x2 _ 0 h w ?_ ?_ ?_).symm
    · show 0 + 1 * v.val = 0; have := v.isLt; omega
    · show 0 + 1 * h.val = h.val; omega
    · show 0 + 1 * w.val = w.val; omega

/-! ## The windows' blocks, read where the batch says -/

variable (m : (ℓ : Loc nD τ sig) → Buf (Elt Ideal) ℓ) (ρ : Dev nD → PrngReg)

/-- The activation and the bias, as launched. -/
abbrev A0 (c : Dev nD) : S16x512x64x64.Idx → EReal := m ((c : Thread nD τ).loc main_arg0)
abbrev A5 (c : Dev nD) : S3.Idx → EReal := m ((c : Thread nD τ).loc main_arg5)

/-- What the output array is to end holding: the reference's last stage, of the argument arrays. -/
abbrev spec (c : Dev nD) : S16x3x64x64.Idx → EReal :=
  Cert.ReferenceIdeal.Read.val_main_v30 (F := Ideal) (A0 m c) (A1 m c) (A2 m c) (A3 m c) (A4 m c) (A5 m c)

/-- The printed index maps over the grid: point `t` is batch `t` of the activation, the weights and the output, at
    block zero on every other axis; the bias has one block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 1) = 0
    ∧ win0_3.index t (0 : Fin 4) = t.val ∧ win0_3.index t (1 : Fin 4) = 0 ∧ win0_3.index t (2 : Fin 4) = 0 ∧ win0_3.index t (3 : Fin 4) = 0 :=
  (by decide +kernel : ∀ t : Fin grid0.N, _)

theorem read0 (c : Dev nD) (t : Fin cfg0.N) (b : Fin 16) (hb : b.val = t.val) (k : Fin 512) (h w : Fin 64) :
    iblk m c 0 t (ix4 (0 : Fin 1) k h w) = A0 m c (ix4 b k h w) := by
  obtain ⟨e0, e1, e2, e3, -⟩ := idx_facts t
  show V m c main_arg0 (((cfg0.win 0).blk t).view.emb (ix4 (0 : Fin 1) k h w)) = _
  rw [V_main_arg0]
  have h0 : ((cfg0.win 0).blk t).view.emb (ix4 (0 : Fin 1) k h w) = ix4 b k h w := by
    funext a; apply Fin.ext
    match a with
    | ⟨0, _⟩ => show win0_0.index t (0 : Fin 4) * 1 + 1 * 0 = b.val; omega
    | ⟨1, _⟩ => show win0_0.index t (1 : Fin 4) * 512 + 1 * k.val = k.val; omega
    | ⟨2, _⟩ => show win0_0.index t (2 : Fin 4) * 64 + 1 * h.val = h.val; omega
    | ⟨3, _⟩ => show win0_0.index t (3 : Fin 4) * 64 + 1 * w.val = w.val; omega
  rw [h0]

theorem read1 (c : Dev nD) (t : Fin cfg0.N) (b : Fin 16) (hb : b.val = t.val) (o : Fin 3) (k : Fin 512) :
    iblk m c 1 t (ix3 (0 : Fin 1) o k) = (V m c main_v19 : S16x3x512.Idx → EReal) (ix3 b o k) := by
  obtain ⟨-, -, -, -, e0, e1, e2, -⟩ := idx_facts t
  show V m c main_v19 (((cfg0.win 1).blk t).view.emb (ix3 (0 : Fin 1) o k)) = _
  have h0 : ((cfg0.win 1).blk t).view.emb (ix3 (0 : Fin 1) o k) = ix3 b o k := by
    funext a; apply Fin.ext
    match a with
    | ⟨0, _⟩ => show win0_1.index t (0 : Fin 3) * 1 + 1 * 0 = b.val; omega
    | ⟨1, _⟩ => show win0_1.index t (1 : Fin 3) * 3 + 1 * o.val = o.val; omega
    | ⟨2, _⟩ => show win0_1.index t (2 : Fin 3) * 512 + 1 * k.val = k.val; omega
  rw [h0]

theorem read2 (c : Dev nD) (t : Fin cfg0.N) (o : Fin 3) :
    iblk m c 2 t (ix1 o) = A5 m c (ix1 o) := by
  obtain ⟨-, -, -, -, -, -, -, e0, -⟩ := idx_facts t
  show V m c main_arg5 (((cfg0.win 2).blk t).view.emb (ix1 o)) = _
  rw [V_main_arg5]
  have h0 : ((cfg0.win 2).blk t).view.emb (ix1 o) = ix1 o := by
    funext a; apply Fin.ext
    match a with
    | ⟨0, _⟩ => show win0_2.index t (0 : Fin 1) * 3 + 1 * o.val = o.val; omega
  rw [h0]

/-! ## The kernel's entry is the reference's -/

/-- The contraction against the combined weights equals the reference's contraction scaled afterwards: the
    demodulation coefficient is a non-negative real, so it distributes over the channel sum. -/
theorem entry_eq (c : Dev nD) (b : Fin 16) (o : Fin 3) (h w : Fin 64) :
    (∑ k : Fin 512, A0 m c (ix4 b k h w) * (V m c main_v19 : S16x3x512.Idx → EReal) (ix3 b o k)) + A5 m c (ix1 o)
      = spec m c (ix4 b o h w) := by
  refine Eq.trans ?_ (Cert.RefEntry.reference_apply (A0 m c) (A1 m c) (A2 m c) (A3 m c) (A4 m c) (A5 m c) b o h w).symm
  refine Eq.trans (congrArg₂ (· + ·) (Finset.sum_congr rfl fun k _ =>
    congrArg₂ (· * ·) rfl (window1_apply m c b o k)) rfl) ?_
  exact ScaledSum.scaled_sum_eq (fun k : Fin 512 => A0 m c (ix4 b k h w))
    (fun k : Fin 512 => Cert.ReferenceIdeal.Read.val_main_v6 (F := Ideal) (A1 m c) (A2 m c) (A3 m c) (ix2 b k))
    (fun k : Fin 512 => A4 m c (ix2 o k))
    (Cert.Demod.coef_nonneg (A1 m c) (A2 m c) (A3 m c) (A4 m c) (ix2 b o))
    (Cert.Demod.coef_ne_top (A1 m c) (A2 m c) (A3 m c) (A4 m c) (ix2 b o)) (A5 m c (ix1 o))

/-- The block function of point `t`'s input blocks, at a block index, is the specification at the array index
    the output window's block puts it at. -/
theorem block_entry (c : Dev nD) (t : Fin cfg0.N) (y : S1x3x64x64.Idx) :
    blockFn (iblk m c 0 t) (iblk m c 1 t) (iblk m c 2 t) y = spec m c (((cfg0.win 3).blk t).view.emb y) := by
  obtain ⟨u, o, h, w, rfl⟩ : ∃ (u : Fin 1) (o : Fin 3) (h w : Fin 64), y = ix4 u o h w := ⟨y 0, y 1, y 2, y 3, eq_ix4 y⟩
  have ht : t.val < 16 := lt_of_lt_of_eq t.isLt N_0
  obtain ⟨b, hb⟩ : ∃ b : Fin 16, b.val = t.val := ⟨⟨t.val, ht⟩, rfl⟩
  obtain ⟨-, -, -, -, -, -, -, -, e0, e1, e2, e3⟩ := idx_facts t
  have h3 : ((cfg0.win 3).blk t).view.emb (ix4 u o h w) = ix4 b o h w := by
    funext a; apply Fin.ext
    match a with
    | ⟨0, _⟩ => show win0_3.index t (0 : Fin 4) * 1 + 1 * u.val = b.val; have := u.isLt; omega
    | ⟨1, _⟩ => show win0_3.index t (1 : Fin 4) * 3 + 1 * o.val = o.val; omega
    | ⟨2, _⟩ => show win0_3.index t (2 : Fin 4) * 64 + 1 * h.val = h.val; omega
    | ⟨3, _⟩ => show win0_3.index t (3 : Fin 4) * 64 + 1 * w.val = w.val; omega
  rw [h3, ← entry_eq m c b o h w]
  refine (blockFn_apply (iblk m c 0 t) (iblk m c 1 t) (iblk m c 2 t) (ix4 u o h w) o h w rfl rfl rfl).trans ?_
  exact congrArg₂ (· + ·) (Finset.sum_congr rfl fun k _ =>
    congrArg₂ (· * ·) (read0 m c t b hb k h w) (read1 m c t b hb o k)) (read2 m c t o)

/-- WHAT POINT `t` WRITES BACK is block `t` of the specification. -/
theorem flushed_eq (c : Dev nD) (t : Fin cfg0.N) :
    (dats m 0 c).flushed 3 t = ((cfg0.win 3).blk t).view.read (Elt Ideal) (spec m c) := by
  rw [Cert.KernelIdeal.Value.flushed3, body_eq]
  funext y
  show blockFn (iblk m c 0 t) (iblk m c 1 t) (iblk m c 2 t) y = spec m c (((cfg0.win 3).blk t).view.emb y)
  exact block_entry m c t y

/-! ## The cover and the final array -/

theorem mem_blk (t : Fin cfg0.N) (i : S16x3x64x64.Idx) :
    i ∈ ((cfg0.win 3).blk t).view.set ↔ ∀ a : Fin 4, win0_3.index t a * S1x3x64x64.size a ≤ (i a).val
      ∧ (i a).val < win0_3.index t a * S1x3x64x64.size a + S1x3x64x64.size a := by
  show i ∈ ((View.whole main_v20).slice (win0_3.rect t)).set ↔ _
  rw [View.set_slice_whole, Rect.mem_set_unit]
  exact Iff.rfl

/-- Every index of the output is in its batch's block. -/
theorem cover (i : S16x3x64x64.Idx) :
    ∃ t : Fin cfg0.N, (cfg0.win 3).flush t = true ∧ i ∈ ((cfg0.win 3).blk t).view.set := by
  have hi0 : (i 0).val < 16 := (i 0).isLt
  have hi1 : (i 1).val < 3 := (i 1).isLt
  have hi2 : (i 2).val < 64 := (i 2).isLt
  have hi3 : (i 3).val < 64 := (i 3).isLt
  obtain ⟨t, ht⟩ : ∃ t : Fin cfg0.N, t.val = (i 0).val := ⟨⟨(i 0).val, lt_of_lt_of_eq hi0 N_0.symm⟩, rfl⟩
  obtain ⟨-, -, -, -, -, -, -, -, e0, e1, e2, e3⟩ := idx_facts t
  refine ⟨t, flush0_3 t, ?_⟩
  rw [mem_blk]
  intro a
  match a with
  | ⟨0, _⟩ => show win0_3.index t (0 : Fin 4) * 1 ≤ (i 0).val ∧ (i 0).val < win0_3.index t (0 : Fin 4) * 1 + 1; omega
  | ⟨1, _⟩ => show win0_3.index t (1 : Fin 4) * 3 ≤ (i 1).val ∧ (i 1).val < win0_3.index t (1 : Fin 4) * 3 + 3; omega
  | ⟨2, _⟩ => show win0_3.index t (2 : Fin 4) * 64 ≤ (i 2).val ∧ (i 2).val < win0_3.index t (2 : Fin 4) * 64 + 64; omega
  | ⟨3, _⟩ => show win0_3.index t (3 : Fin 4) * 64 ≤ (i 3).val ∧ (i 3).val < win0_3.index t (3 : Fin 4) * 64 + 64; omega

/-- THE OUTPUT ARRAY after the run is the specification. -/
theorem final (c : Dev nD) : (dats m 0 c).arrAt 3 cfg0.N = spec m c :=
  (dats m 0 c).arrAt_eq_of_cover 3 (spec m c) (fun t _ => flushed_eq m c t) cover

/-- The kernel's run: the result array ends at the specification, the arguments unchanged. -/
theorem run : θ_run defs (onTc (τ := τ) (main (F := Ideal))) ⟨m, fun _ => 0, ρ⟩ fun r => ∀ c : Dev nD,
      r.2.mem ((c : Thread nD τ).loc main_v20) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩)
    (Cert.KernelIdeal.Value.run_blocks m ρ)

end Cert.Blocks

end
-- ==== Proof.lean ====
/-
  The style-modulated 1×1 convolution to three channels: a Pallas kernel that streams the activation once against a
  per-batch combined weight, against the reference's scale – contract – scale.

  With `styles(b,c) = ∑_k w(b,k) · (aw(c,k) · g) + ab(c)`, `ww(b,o,c) = weight(o,c) · styles(b,c)` and
  `d(b,o) = rsqrt (∑_c ww(b,o,c)² + ε)`, the kernel computes on the host `comb = ww · d` and in its body
  `y(b,o,h,w) = ∑_c x(b,c,h,w) · comb(b,o,c) + bias(o)`; the reference computes
  `y(b,o,h,w) = (∑_c (x(b,c,h,w) · styles(b,c)) · weight(o,c)) · d(b,o) + bias(o)`. The two agree term by term up to the
  position of the factor `d(b,o)`, and `d(b,o)` is a non-negative real whatever the inputs are (the radicand is a
  sum of squares plus a positive constant, so it lies in `(0, ⊤]`): such a factor distributes over a sum of extended
  reals. The equality therefore holds at every extended-real input, and the precondition is not used.

  Modules: `LibScaledSum` (the law on the extended reals), `Demod` (`d` is a non-negative real), `ModWeights` (the
  combined weights the kernel stages, at an index), `Pieces` (each stored plane at an index), `RefEntry` (the reference
  at an index), `Blocks` (one batch's block as one function, the join, the cover, the final array). The frames are the
  generated ones; the reference's is its generated run with the result dropped. The ideal pass rewrote nothing, so
  `preserves` is `True`.
-/
import proofs.«150858_j59390807769597_1_alg».proof.Defs
import proofs.«150858_j59390807769597_1_alg».proof.Proof.Gen.Kernel
import proofs.«150858_j59390807769597_1_alg».proof.Proof.Gen.Kernel.Skeleton
import proofs.«150858_j59390807769597_1_alg».proof.Proof.Gen.Kernel.Launch
import proofs.«150858_j59390807769597_1_alg».proof.Proof.Gen.Kernel.Points
import proofs.«150858_j59390807769597_1_alg».proof.Proof.Gen.Kernel.Frame
import proofs.«150858_j59390807769597_1_alg».proof.Proof.Gen.KernelIdeal
import proofs.«150858_j59390807769597_1_alg».proof.Proof.Gen.KernelIdeal.Skeleton
import proofs.«150858_j59390807769597_1_alg».proof.Proof.Gen.KernelIdeal.Launch
import proofs.«150858_j59390807769597_1_alg».proof.Proof.Gen.KernelIdeal.Points
import proofs.«150858_j59390807769597_1_alg».proof.Proof.Gen.KernelIdeal.Frame
import proofs.«150858_j59390807769597_1_alg».proof.Proof.Gen.ReferenceIdeal
import proofs.«150858_j59390807769597_1_alg».proof.Proof.Gen.KernelIdeal.Value
import proofs.«150858_j59390807769597_1_alg».proof.Proof.Gen.ReferenceIdeal.Run
import proofs.«150858_j59390807769597_1_alg».proof.Proof.Gen.ReferenceIdeal.Read
import proofs.«150858_j59390807769597_1_alg».proof.Proof.Gen.Pre_finite_inputs
import proofs.«150858_j59390807769597_1_alg».proof.Proof.Blocks
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the reference's last stage of the (agreeing) argument arrays: the kernel's by `Blocks.run`,
    the reference's by its generated run, whose composed term is that stage. -/
theorem algebraic : Cert.algebraic_KernelIdeal_ReferenceIdeal := by
  intro m ρ m' ρ' _ hagree
  refine ⟨fun c => Cert.Blocks.spec m c, Cert.Blocks.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2.1, (hagree c).2.2.2.2.2]
  exact Cert.ReferenceIdeal.Read.val_main_v30_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
